-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v20) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x64 .f32) (main_arg1 : FVec F S64x64 .f32) (main_arg2 : FVec F S64x64 .f32) (main_arg3 : FVec F S64 .f32) (main_arg4 : IVec S800000 32) (main_arg5 : IVec S800000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S1x64 : Shape := ⟨2, ![1, 64]⟩
abbrev S5000x64 : Shape := ⟨2, ![5000, 64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩
abbrev S5000x1 : Shape := ⟨2, ![5000, 1]⟩

abbrev nBuf : Space → Nat
  | .hbm => 32
  | .vmem => 15
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S800000, .i32⟩
  | .hbm, ⟨5, _⟩ => ⟨S800000, .i32⟩
  | .hbm, ⟨6, _⟩ => ⟨S64x64, .f32⟩
  | .hbm, ⟨7, _⟩ => ⟨S64x64, .f32⟩
  | .hbm, ⟨8, _⟩ => ⟨S1x64, .f32⟩
  | .hbm, ⟨9, _⟩ => ⟨S50000x64, .bf16⟩
  | .hbm, ⟨10, _⟩ => ⟨S_, .i32⟩
  | .hbm, ⟨11, _⟩ => ⟨S800000, .i32⟩
  | .hbm, ⟨12, _⟩ => ⟨S800000, .i1⟩
  | .hbm, ⟨13, _⟩ => ⟨S_, .i32⟩
  | .hbm, ⟨14, _⟩ => ⟨S800000, .i32⟩
  | .hbm, ⟨15, _⟩ => ⟨S800000, .i32⟩
  | .hbm, ⟨16, _⟩ => ⟨S800000, .i32⟩
  | .hbm, ⟨17, _⟩ => ⟨S800000x1, .i32⟩
  | .hbm, ⟨18, _⟩ => ⟨S800000x64, .bf16⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S50000x1, .f32⟩
  | .hbm, ⟨31, _⟩ => ⟨S50000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S1x64, .f32⟩
  | .local _ .vmem, ⟨4, _⟩ => ⟨S5000x64, .bf16⟩
  | .local _ .vmem, ⟨5, _⟩ => ⟨S5000x64, .bf16⟩
  | .local _ .vmem, ⟨6, _⟩ => ⟨S5000x64, .f32⟩
  | .local _ .vmem, ⟨7, _⟩ => ⟨S5000x64, .f32⟩
  | .local _ .vmem, ⟨8, _⟩ => ⟨S64x64, .f32⟩
  | .local _ .vmem, ⟨9, _⟩ => ⟨S5000x64, .f32⟩
  | .local _ .vmem, ⟨10, _⟩ => ⟨S5000x64, .f32⟩
  | .local _ .vmem, ⟨11, _⟩ => ⟨S5000x1, .f32⟩
  | .local _ .vmem, ⟨12, _⟩ => ⟨S5000x1, .f32⟩
  | .local _ .vmem, ⟨13, _⟩ => ⟨S5000x64, .f32⟩
  | .local _ .vmem, ⟨14, _⟩ => ⟨S5000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  transposes_S64x64_S64x64_1_0 : S64x64.Transposes [1, 0] S64x64
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  shapeCasts_S50000_S50000x1 : S50000.ShapeCasts S50000x1
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x64_S5000x64 : S5000x64.ShapeCasts S5000x64
  broadcasts_S5000x1_S5000x64 : S5000x1.Broadcasts S5000x64
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S50000x64.size a
  hwx0_0 : ∀ i : grid0.Coords, EltTy.bits .f32 = 32 ∨ (Rect.block (s := S50000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .bf16 = 32 ∨ (Rect.block (s := S50000x64) S5000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x1.size a ≤ S50000x1.size a
  hwx1_3 : ∀ i : grid1.Coords, EltTy.bits .f32 = 32 ∨ (Rect.block (s := S50000x1) S5000x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v19) S5000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v20) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S800000 : Shape := ⟨1, ![800000]⟩
abbrev S1x64 : Shape := ⟨2, ![1, 64]⟩
abbrev S_ : Shape := ⟨0, ![]⟩
abbrev S800000x1 : Shape := ⟨2, ![800000, 1]⟩
abbrev S800000x64 : Shape := ⟨2, ![800000, 64]⟩
abbrev S50000 : Shape := ⟨1, ![50000]⟩
abbrev S50000x1 : Shape := ⟨2, ![50000, 1]⟩

abbrev nBuf : Space → Nat
  | .hbm => 37
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S64x64, .f32⟩
  | .hbm, ⟨2, _⟩ => ⟨S64x64, .f32⟩
  | .hbm, ⟨3, _⟩ => ⟨S64, .f32⟩
  | .hbm, ⟨4, _⟩ => ⟨S800000, .i32⟩
  | .hbm, ⟨5, _⟩ => ⟨S800000, .i32⟩
  | .hbm, ⟨6, _⟩ => ⟨S50000x64, .f32⟩
  | .hbm, ⟨7, _⟩ => ⟨S50000x64, .f32⟩
  | .hbm, ⟨8, _⟩ => ⟨S1x64, .f32⟩
  | .hbm, ⟨9, _⟩ => ⟨S50000x64, .f32⟩
  | .hbm, ⟨10, _⟩ => ⟨S50000x64, .f32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .f32⟩
  | .hbm, ⟨21, _⟩ => ⟨S50000x64, .f32⟩
  | .hbm, ⟨22, _⟩ => ⟨S800000x1, .i32⟩
  | .hbm, ⟨23, _⟩ => ⟨S50000x64, .f32⟩
  | .hbm, ⟨24, _⟩ => ⟨S_, .f32⟩
  | .hbm, ⟨25, _⟩ => ⟨S800000, .f32⟩
  | .hbm, ⟨26, _⟩ => ⟨S_, .f32⟩
  | .hbm, ⟨27, _⟩ => ⟨S50000, .f32⟩
  | .hbm, ⟨28, _⟩ => ⟨S800000x1, .i32⟩
  | .hbm, ⟨29, _⟩ => ⟨S50000, .f32⟩
  | .hbm, ⟨30, _⟩ => ⟨S_, .f32⟩
  | .hbm, ⟨31, _⟩ => ⟨S50000, .f32⟩
  | .hbm, ⟨32, _⟩ => ⟨S50000, .f32⟩
  | .hbm, ⟨33, _⟩ => ⟨S50000x1, .f32⟩
  | .hbm, ⟨34, _⟩ => ⟨S50000x64, .f32⟩
  | .hbm, ⟨35, _⟩ => ⟨S50000x64, .f32⟩
  | .hbm, ⟨36, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  dot_S50000x64_S64x64_S50000x64_1_1_0_0_n_n_wf : DotDims.WF S50000x64 S64x64 S50000x64 [1] [1] [0] [0] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1

variable [Facts₀]

def dot_S50000x64_S64x64_S50000x64_1_1_0_0_n_n : DotDims S50000x64 S64x64 S50000x64 where
  lhsContracting := [1]
  rhsContracting := [1]
  lhsNonContracting := [0]
  rhsNonContracting := [0]
  lhsBatch := []
  rhsBatch := []
  wf := dot_S50000x64_S64x64_S50000x64_1_1_0_0_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KRun.lean ====
import proofs.«171881_j2259152798562_2_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The program's run with its result named. Every weakly fair execution of the two launches and the host
    operations around them terminates without a fault; the result buffer then holds what the second launch's
    write-backs leave of it (the contents of the last segment boundary at that buffer), and the six argument
    arrays are as launched. The run is the one the frame uses: the same four segments, the same thread states;
    only the final reading also looks at the result buffer, which is one of the unscoped buffers the last
    thread state holds. -/
theorem run : θ_run defs (onTc (τ := τ) (main (F := F))) ⟨m, fun _ => 0, ρ⟩ (fun r => ∀ c : Dev nD,
      r.2.mem ((c.tc : Thread nD τ).loc main_v20) = W4 m ρ c (Proc.devRef .tc main_v20)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v20 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Cert.KernelIdeal.KRun

end
-- ==== Proof.MatmulRead.lean ====
/-
  The kernels' matrix product read at an output index. Both kernel bodies multiply a block of 5000 rows of
  node features by a 64×64 weight block with the same dimension numbers (the left operand contracts its axis 1,
  the right operand its axis 0), into a zero accumulator. On the extended reals that product, at row `p` and
  column `q`, is the plain sum over `k` of `lhs (p, k) · rhs (k, q)`.
-/
import proofs.«171881_j2259152798562_2_alg».proof.Proof.Gen.KernelIdeal
import Idealize.ShloMosaic.Lib.ValueIdx
import Idealize.ShloMosaic.PureOps.Ideal.Laws

noncomputable section

namespace Cert.KernelIdeal.Dot

open Cert.KernelIdeal Idealize.ShloMosaic Idealize.ShloMosaic.ValueIdx
open Facts₀ Facts

variable [Cert.KernelIdeal.Facts]

/-- The left operand's row coordinate is the output's row. -/
theorem lhs_row (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide),
    dif_pos (show (0 : Fin S5000x64.rank) ∈ dot_S5000x64_S64x64_S5000x64_1_0_0_1_n_n.lhsNonContracting by decide)]
  rfl

/-- The right operand's column coordinate is the output's column. -/
theorem rhs_col (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide),
    dif_pos (show (1 : Fin S64x64.rank) ∈ dot_S5000x64_S64x64_S5000x64_1_0_0_1_n_n.rhsNonContracting by decide)]
  rfl

/-- The product into the zero accumulator, at `(p, q)`: the sum over the one contracted axis. -/
theorem matmul_zero_apply (lhs : FVec Ideal S5000x64 .bf16) (rhs : FVec Ideal S64x64 .bf16) (p : Fin 5000) (q : Fin 64) :
    matmul (F := Ideal) dot_S5000x64_S64x64_S5000x64_1_0_0_1_n_n none lhs rhs (constant (F := Ideal) S5000x64 .f32 0x00000000#32) (ix2 p q)
      = ∑ k : Fin 64, lhs (ix2 p k) * rhs (ix2 k q) := by
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun a => Fin.ext (by
      match a with
      | ⟨0, _⟩ => exact lhs_row _ _
      | ⟨1, _⟩ => exact (dot_S5000x64_S64x64_S5000x64_1_0_0_1_n_n.lhsIdx_val_of_single rfl _ _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun a => Fin.ext (by
      match a with
      | ⟨0, _⟩ => exact (dot_S5000x64_S64x64_S5000x64_1_0_0_1_n_n.rhsIdx_val_of_single rfl _ _).trans hk
      | ⟨1, _⟩ => exact rhs_col _ _)
  rw [el, er]

end Cert.KernelIdeal.Dot

end
-- ==== Proof.Region0.lean ====
/-
  The first launch (the neighbour projection) as one function of the arrays it is entered with.
  Its grid has ten points; point `t` stages rows `5000·t … 5000·t + 4999` of the node features, the whole
  transposed weight matrix and the one-row bias, and writes back the same rows of its result. The body computes, for
  row `p` and column `q` of the block, the sum over `k` of `features (p, k) · weights (k, q)` plus `bias (0, q)`
  (the roundings to bfloat16 are the identity on the extended reals). The ten row blocks tile the result, so the
  array the launch leaves is that formula at every index.
-/
import proofs.«171881_j2259152798562_2_alg».proof.Proof.Gen.KernelIdeal.Frame
import proofs.«171881_j2259152798562_2_alg».proof.Proof.MatmulRead
import Idealize.ShloMosaic.Lib.Pipeline.Value
import Idealize.ShloMosaic.Lib.ValueIdx
import Idealize.ShloMosaic.Lib.ValueLayout

set_option maxRecDepth 16384

noncomputable section

namespace Cert.KernelIdeal.Linear

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Features times weights plus the bias row, at row `p` and column `q`. -/
def affine {n : Nat} (a : (⟨2, ![n, 64]⟩ : Shape).Idx → EReal) (w : (⟨2, ![64, 64]⟩ : Shape).Idx → EReal)
    (b : (⟨2, ![1, 64]⟩ : Shape).Idx → EReal) (p : Fin n) (q : Fin 64) : EReal :=
  (∑ k : Fin 64, a (ix2 p k) * w (ix2 k q)) + b (ix2 (0 : Fin 1) q)

/-- The whole result: the same formula at every index of the 50000 × 64 array. -/
def projected (a : S50000x64.Idx → EReal) (w : S64x64.Idx → EReal) (b : S1x64.Idx → EReal) : S50000x64.Idx → EReal :=
  fun i => affine a w b ⟨(i 0).val, (i 0).isLt⟩ ⟨(i 1).val, (i 1).isLt⟩

/-- The body's stored value at `(p, q)`. -/
theorem pay_apply (x0 : Vec Ideal S5000x64 .f32) (x1 : Vec Ideal S64x64 .f32) (x2 : Vec Ideal S1x64 .f32) (p : Fin 5000) (q : Fin 64) :
    k0_pay1 (F := Ideal) x0 x1 x2 (ix2 p q) = affine x0 x1 x2 p q := by
  unfold k0_pay1 affine
  refine (congrArg₂ (· + ·) (Dot.matmul_zero_apply _ _ p q) (broadcastTo_1b_ab_apply _ _ p q)).trans ?_
  simp only [shapeCast_self]
  rfl

/-- The same at any index of the block. -/
theorem pay_at (x0 : Vec Ideal S5000x64 .f32) (x1 : Vec Ideal S64x64 .f32) (x2 : Vec Ideal S1x64 .f32) (j : S5000x64.Idx) :
    k0_pay1 (F := Ideal) x0 x1 x2 j = affine x0 x1 x2 ⟨(j 0).val, (j 0).isLt⟩ ⟨(j 1).val, (j 1).isLt⟩ := by
  obtain ⟨p, q, rfl⟩ : ∃ (p : Fin 5000) (q : Fin 64), j = ix2 p q := ⟨j 0, j 1, eq_ix2 j⟩
  exact pay_apply x0 x1 x2 p q

/-- The printed index maps over the ten points: the feature block moves with the result block along the rows, and the
    weights and the bias are staged whole. -/
theorem idx_facts : ∀ t : Fin cfg0.N, win0_0.index t (0 : Fin 2) = win0_3.index t (0 : Fin 2)
    ∧ win0_0.index t (1 : Fin 2) = 0 ∧ win0_3.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- Every one of the ten row blocks is some point's. -/
theorem idx_onto : ∀ q0 : Fin 10, ∃ t : Fin cfg0.N, win0_3.index t = ![q0.val, 0] :=
  (by decide +kernel : ∀ q0 : Fin 10, ∃ t : Fin grid0.N, win0_3.index t = ![q0.val, 0])

/-- The staged feature block at point `t`, read at `x`: the features' array at row `5000·(block index) + x₀`. -/
theorem feat_blk (c : Dev nD) (t : Fin cfg0.N) (x : S5000x64.Idx) (k : S50000x64.Idx)
    (hk0 : (k 0).val = win0_3.index t (0 : Fin 2) * 5000 + (x 0).val) (hk1 : (k 1).val = (x 1).val) :
    (iblk0 V c 0 t : Vec Ideal S5000x64 .f32) x = (V c main_arg0 : S50000x64.Idx → EReal) k := by
  obtain ⟨e0, e1, -⟩ := idx_facts t
  unfold iblk0
  rw [View.read_apply]
  show V c main_arg0 _ = V c main_arg0 _
  refine congrArg _ ?_
  funext a
  apply Fin.ext
  match a with
  | ⟨0, _⟩ => show win0_0.index t (0 : Fin 2) * 5000 + 1 * (x 0).val = (k 0).val; rw [e0, hk0]; omega
  | ⟨1, _⟩ => show win0_0.index t (1 : Fin 2) * 64 + 1 * (x 1).val = (k 1).val; rw [e1, hk1]; omega

/-- The staged weights are the whole weight array. -/
theorem w_blk (c : Dev nD) (t : Fin cfg0.N) (x : S64x64.Idx) :
    (iblk0 V c 1 t : Vec Ideal S64x64 .f32) x = (V c main_v1 : S64x64.Idx → EReal) x := by
  obtain ⟨-, -, -, e0, e1, -⟩ := idx_facts t
  unfold iblk0
  rw [View.read_apply]
  show V c main_v1 _ = V c main_v1 _
  refine congrArg _ ?_
  funext a
  apply Fin.ext
  match a with
  | ⟨0, _⟩ => show win0_1.index t (0 : Fin 2) * 64 + 1 * (x 0).val = (x 0).val; rw [e0]; omega
  | ⟨1, _⟩ => show win0_1.index t (1 : Fin 2) * 64 + 1 * (x 1).val = (x 1).val; rw [e1]; omega

/-- The staged bias is the whole one-row bias array. -/
theorem b_blk (c : Dev nD) (t : Fin cfg0.N) (x : S1x64.Idx) :
    (iblk0 V c 2 t : Vec Ideal S1x64 .f32) x = (V c main_v2 : S1x64.Idx → EReal) x := by
  obtain ⟨-, -, -, -, -, e0, e1⟩ := idx_facts t
  unfold iblk0
  rw [View.read_apply]
  show V c main_v2 _ = V c main_v2 _
  refine congrArg _ ?_
  funext a
  apply Fin.ext
  match a with
  | ⟨0, _⟩ => show win0_2.index t (0 : Fin 2) * 1 + 1 * (x 0).val = (x 0).val; rw [e0]; omega
  | ⟨1, _⟩ => show win0_2.index t (1 : Fin 2) * 64 + 1 * (x 1).val = (x 1).val; rw [e1]; omega

/-- What point `t` writes back is block `t` of `projected` of the arrays the launch is entered with. -/
theorem flushed_eq (c : Dev nD) (t : Fin cfg0.N) :
    (dat0 V c).flushed 3 t = ((cfg0.win 3).blk t).view.read (Elt Ideal)
      (projected (V c main_arg0) (V c main_v1) (V c main_v2)) := by
  show (cfg0.win 3).cut (grid0.coords t) ((dat0 V c).after 3 t) = _
  rw [after0_3]
  unfold out0_3
  rw [View.canon_unit_zero hz]
  simp only [View.ld_unit_zero (S := S5000x64) hz, View.ld_unit_zero (S := S64x64) hz, View.ld_unit_zero (S := S1x64) hz]
  obtain ⟨-, -, e31, -⟩ := idx_facts t
  funext j
  show k0_pay1 (F := Ideal) (iblk0 V c 0 t) (iblk0 V c 1 t) (iblk0 V c 2 t) j
    = projected (V c main_arg0) (V c main_v1) (V c main_v2) (((cfg0.win 3).blk t).view.emb j)
  refine (pay_at (iblk0 V c 0 t) (iblk0 V c 1 t) (iblk0 V c 2 t) j).trans ?_
  unfold projected affine
  have hj1 : (j 1).val < 64 := (j 1).isLt
  have h1 : ((((cfg0.win 3).blk t).view.emb j) 1).val = (j 1).val := by
    show win0_3.index t (1 : Fin 2) * 64 + 1 * (j 1).val = (j 1).val; rw [e31]; omega
  have h0 : ((((cfg0.win 3).blk t).view.emb j) 0).val = win0_3.index t (0 : Fin 2) * 5000 + (j 0).val := by
    show win0_3.index t (0 : Fin 2) * 5000 + 1 * (j 0).val = _; omega
  refine congrArg₂ (· + ·) (Finset.sum_congr rfl fun k _ => congrArg₂ (· * ·) ?_ ?_) ?_
  · exact feat_blk V c t _ _ h0 rfl
  · refine (w_blk V c t _).trans (congrArg _ ?_)
    funext a; apply Fin.ext
    match a with
    | ⟨0, _⟩ => rfl
    | ⟨1, _⟩ => exact h1.symm
  · refine (b_blk V c t _).trans (congrArg _ ?_)
    funext a; apply Fin.ext
    match a with
    | ⟨0, _⟩ => rfl
    | ⟨1, _⟩ => exact h1.symm

/-- An index of the array is in point `t`'s block iff each coordinate is in the block's range on its axis. -/
theorem mem_blk (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v3).slice (win0_3.rect t)).set ↔ _
  rw [View.set_slice_whole, Rect.mem_set_unit]
  exact Iff.rfl

/-- Every index is in some point's block: row `r` lies in block `r / 5000`. -/
theorem cover (i : S50000x64.Idx) : ∃ t : Fin cfg0.N, (cfg0.win 3).flush t = true ∧ i ∈ ((cfg0.win 3).blk t).view.set := by
  have hi0 : (i 0).val < 50000 := (i 0).isLt
  have hi1 : (i 1).val < 64 := (i 1).isLt
  obtain ⟨t, ht⟩ := idx_onto ⟨(i 0).val / 5000, by omega⟩
  have q0 : win0_3.index t (0 : Fin 2) = (i 0).val / 5000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 64 ≤ (i 1).val ∧ (i 1).val < win0_3.index t (1 : Fin 2) * 64 + 64; omega

/-- The result array after the launch, whatever arrays it is entered with. -/
theorem final (c : Dev nD) :
    (dat0 V c).arrAt 3 cfg0.N = projected (V c main_arg0) (V c main_v1) (V c main_v2) :=
  (dat0 V c).arrAt_eq_of_cover 3 _ (fun t _ => flushed_eq V c t) cover

end Cert.KernelIdeal.Linear

end
-- ==== Proof.LibColumn.lean ====
/-
  Column vectors read at an index given by coordinates: a vector of length `a` cast to an `[a, 1]` column, and an
  `[a, 1]` column broadcast over `b` columns. (The library's Lib/ValueLayout.lean has the row forms, `[a] → [1, a]` and
  `[1, b] → [a, b]`; these are their transposes, proved the same way from `shapeCast_apply` and `broadcastTo_apply`.)
-/
import Idealize.ShloMosaic.Lib.Pipeline.Value
import Idealize.ShloMosaic.Lib.ValueIdx

namespace ColumnLayout

open Idealize.ShloMosaic Idealize.ShloMosaic.ValueIdx

variable {α : Type}

/-- An `[a]` vector cast to an `[a, 1]` column reads, at `(p, u)`, the vector at `p`, whatever the unit
    coordinate `u`: both indices have row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The entries of an `[a, 1]` column as a vector of length `a`. -/
def colVec {a : ℕ} (v : (⟨2, ![a, 1]⟩ : Shape).Idx → α) : (⟨1, ![a]⟩ : Shape).Idx → α :=
  fun i => v (ix2 ⟨(i 0).val, (i 0).isLt⟩ (0 : Fin 1))

theorem colVec_ix1 {a : ℕ} (v : (⟨2, ![a, 1]⟩ : Shape).Idx → α) (p : Fin a) : colVec v (ix1 p) = v (ix2 p (0 : Fin 1)) := rfl

/-- The one row of a `[1, b]` array as a vector of length `b`. -/
def rowVec {b : ℕ} (v : (⟨2, ![1, b]⟩ : Shape).Idx → α) : (⟨1, ![b]⟩ : Shape).Idx → α :=
  fun i => v (ix2 (0 : Fin 1) ⟨(i 0).val, (i 0).isLt⟩)

theorem rowVec_ix1 {b : ℕ} (v : (⟨2, ![1, b]⟩ : Shape).Idx → α) (q : Fin b) : rowVec v (ix1 q) = v (ix2 (0 : Fin 1) q) := rfl

end ColumnLayout
-- ==== Proof.Region1.lean ====
/-
  The second launch (the self projection combined with the degree-normalised neighbour sum) as one function of the
  arrays it is entered with. Its grid has ten points; point `t` stages rows `5000·t … 5000·t + 4999` of the node
  features, of the summed messages and of the one-column degree array, and the whole transposed self weights, and
  writes back the same rows of the result. For row `p` and column `q` the body computes the sum over `k` of
  `features (p, k) · weights (k, q)`, plus `messages (p, q)` divided by the larger of `degree (p, 0)` and one.
  The ten row blocks tile the result, so the array the launch leaves is that formula at every index.
-/
import proofs.«171881_j2259152798562_2_alg».proof.Proof.Gen.KernelIdeal.Frame
import proofs.«171881_j2259152798562_2_alg».proof.Proof.MatmulRead
import proofs.«171881_j2259152798562_2_alg».proof.Proof.LibColumn
import Idealize.ShloMosaic.Lib.Pipeline.Value
import Idealize.ShloMosaic.Lib.ValueIdx
import Idealize.ShloMosaic.Lib.ValueLayout

set_option maxRecDepth 16384

noncomputable section

namespace Cert.KernelIdeal.Combine

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The number one as the kernel spells it. -/
abbrev one : EReal := Ideal.ofBits .f32 0x3F800000#32

/-- Features times the self weights, plus the messages' sum over the clamped degree, at row `p` and column `q`. -/
def mix {n : Nat} (a : (⟨2, ![n, 64]⟩ : Shape).Idx → EReal) (w : (⟨2, ![64, 64]⟩ : Shape).Idx → EReal)
    (h : (⟨2, ![n, 64]⟩ : Shape).Idx → EReal) (d : (⟨2, ![n, 1]⟩ : Shape).Idx → EReal) (p : Fin n) (q : Fin 64) : EReal :=
  (∑ k : Fin 64, a (ix2 p k) * w (ix2 k q)) + Ideal.div (h (ix2 p q)) (max (d (ix2 p (0 : Fin 1))) one)

/-- The whole result: the same formula at every index of the 50000 × 64 array. -/
def combined (a : S50000x64.Idx → EReal) (w : S64x64.Idx → EReal) (h : S50000x64.Idx → EReal) (d : S50000x1.Idx → EReal) :
    S50000x64.Idx → EReal :=
  fun i => mix a w h d ⟨(i 0).val, (i 0).isLt⟩ ⟨(i 1).val, (i 1).isLt⟩

/-- The body's stored value at `(p, q)`. (The payload takes the degree block before the messages' block.) -/
theorem pay_apply (x0 : Vec Ideal S5000x64 .f32) (x1 : Vec Ideal S64x64 .f32) (x3 : Vec Ideal S5000x1 .f32) (x2 : Vec Ideal S5000x64 .f32)
    (p : Fin 5000) (q : Fin 64) :
    k1_pay1 (F := Ideal) x0 x1 x3 x2 (ix2 p q) = mix x0 x1 x2 x3 p q := by
  unfold k1_pay1 mix
  refine (congrArg₂ (· + ·) (Dot.matmul_zero_apply _ _ p q)
    (congrArg (Ideal.div _) (ColumnLayout.broadcastTo_a1_ab_apply _ _ p q))).trans ?_
  simp only [shapeCast_self]
  rfl

/-- The same at any index of the block. -/
theorem pay_at (x0 : Vec Ideal S5000x64 .f32) (x1 : Vec Ideal S64x64 .f32) (x3 : Vec Ideal S5000x1 .f32) (x2 : Vec Ideal S5000x64 .f32)
    (j : S5000x64.Idx) :
    k1_pay1 (F := Ideal) x0 x1 x3 x2 j = mix x0 x1 x2 x3 ⟨(j 0).val, (j 0).isLt⟩ ⟨(j 1).val, (j 1).isLt⟩ := by
  obtain ⟨p, q, rfl⟩ : ∃ (p : Fin 5000) (q : Fin 64), j = ix2 p q := ⟨j 0, j 1, eq_ix2 j⟩
  exact pay_apply x0 x1 x3 x2 p q

/-- The printed index maps over the ten points: the three row-blocked inputs move with the result block along the
    rows, and the weights are staged whole. -/
theorem idx_facts : ∀ t : Fin cfg1.N, win1_0.index t (0 : Fin 2) = win1_4.index t (0 : Fin 2)
    ∧ win1_0.index t (1 : Fin 2) = 0 ∧ win1_4.index t (1 : Fin 2) = 0
    ∧ win1_1.index t (0 : Fin 2) = 0 ∧ win1_1.index t (1 : Fin 2) = 0
    ∧ win1_2.index t (0 : Fin 2) = win1_4.index t (0 : Fin 2) ∧ win1_2.index t (1 : Fin 2) = 0
    ∧ win1_3.index t (0 : Fin 2) = win1_4.index t (0 : Fin 2) ∧ win1_3.index t (1 : Fin 2) = 0 :=
  (by decide +kernel : ∀ t : Fin grid1.N, _)

/-- Every one of the ten row blocks is some point's. -/
theorem idx_onto : ∀ q0 : Fin 10, ∃ t : Fin cfg1.N, win1_4.index t = ![q0.val, 0] :=
  (by decide +kernel : ∀ q0 : Fin 10, ∃ t : Fin grid1.N, win1_4.index t = ![q0.val, 0])

/-- The staged feature block at point `t`, read at `x`: the features' array at row `5000·(block index) + x₀`. -/
theorem feat_blk (c : Dev nD) (t : Fin cfg1.N) (x : S5000x64.Idx) (k : S50000x64.Idx)
    (hk0 : (k 0).val = win1_4.index t (0 : Fin 2) * 5000 + (x 0).val) (hk1 : (k 1).val = (x 1).val) :
    (iblk1 V c 0 t : Vec Ideal S5000x64 .f32) x = (V c main_arg0 : S50000x64.Idx → EReal) k := by
  obtain ⟨e0, e1, -⟩ := idx_facts t
  unfold iblk1
  rw [View.read_apply]
  show V c main_arg0 _ = V c main_arg0 _
  refine congrArg _ ?_
  funext a
  apply Fin.ext
  match a with
  | ⟨0, _⟩ => show win1_0.index t (0 : Fin 2) * 5000 + 1 * (x 0).val = (k 0).val; rw [e0, hk0]; omega
  | ⟨1, _⟩ => show win1_0.index t (1 : Fin 2) * 64 + 1 * (x 1).val = (k 1).val; rw [e1, hk1]; omega

/-- The staged weights are the whole weight array. -/
theorem w_blk (c : Dev nD) (t : Fin cfg1.N) (x : S64x64.Idx) :
    (iblk1 V c 1 t : Vec Ideal S64x64 .f32) x = (V c main_v0 : S64x64.Idx → EReal) x := by
  obtain ⟨-, -, -, e0, e1, -⟩ := idx_facts t
  unfold iblk1
  rw [View.read_apply]
  show V c main_v0 _ = V c main_v0 _
  refine congrArg _ ?_
  funext a
  apply Fin.ext
  match a with
  | ⟨0, _⟩ => show win1_1.index t (0 : Fin 2) * 64 + 1 * (x 0).val = (x 0).val; rw [e0]; omega
  | ⟨1, _⟩ => show win1_1.index t (1 : Fin 2) * 64 + 1 * (x 1).val = (x 1).val; rw [e1]; omega

/-- The staged block of summed messages at point `t`: the messages' array at row `5000·(block index) + x₀`. -/
theorem sum_blk (c : Dev nD) (t : Fin cfg1.N) (x : S5000x64.Idx) (k : S50000x64.Idx)
    (hk0 : (k 0).val = win1_4.index t (0 : Fin 2) * 5000 + (x 0).val) (hk1 : (k 1).val = (x 1).val) :
    (iblk1 V c 2 t : Vec Ideal S5000x64 .f32) x = (V c main_v14 : S50000x64.Idx → EReal) k := by
  obtain ⟨-, -, -, -, -, e0, e1, -⟩ := idx_facts t
  unfold iblk1
  rw [View.read_apply]
  show V c main_v14 _ = V c main_v14 _
  refine congrArg _ ?_
  funext a
  apply Fin.ext
  match a with
  | ⟨0, _⟩ => show win1_2.index t (0 : Fin 2) * 5000 + 1 * (x 0).val = (k 0).val; rw [e0, hk0]; omega
  | ⟨1, _⟩ => show win1_2.index t (1 : Fin 2) * 64 + 1 * (x 1).val = (k 1).val; rw [e1, hk1]; omega

/-- The staged degree block at point `t`: the degree column at row `5000·(block index) + x₀`. -/
theorem deg_blk (c : Dev nD) (t : Fin cfg1.N) (x : S5000x1.Idx) (k : S50000x1.Idx)
    (hk0 : (k 0).val = win1_4.index t (0 : Fin 2) * 5000 + (x 0).val) (hk1 : (k 1).val = (x 1).val) :
    (iblk1 V c 3 t : Vec Ideal S5000x1 .f32) x = (V c main_v19 : S50000x1.Idx → EReal) k := by
  obtain ⟨-, -, -, -, -, -, -, e0, e1⟩ := idx_facts t
  unfold iblk1
  rw [View.read_apply]
  show V c main_v19 _ = V c main_v19 _
  refine congrArg _ ?_
  funext a
  apply Fin.ext
  match a with
  | ⟨0, _⟩ => show win1_3.index t (0 : Fin 2) * 5000 + 1 * (x 0).val = (k 0).val; rw [e0, hk0]; omega
  | ⟨1, _⟩ => show win1_3.index t (1 : Fin 2) * 1 + 1 * (x 1).val = (k 1).val; rw [e1, hk1]; omega

/-- What point `t` writes back is block `t` of `combined` of the arrays the launch is entered with. -/
theorem flushed_eq (c : Dev nD) (t : Fin cfg1.N) :
    (dat1 V c).flushed 4 t = ((cfg1.win 4).blk t).view.read (Elt Ideal)
      (combined (V c main_arg0) (V c main_v0) (V c main_v14) (V c main_v19)) := by
  show (cfg1.win 4).cut (grid1.coords t) ((dat1 V c).after 4 t) = _
  rw [after1_4]
  unfold out1_4
  rw [View.canon_unit_zero hz]
  simp only [View.ld_unit_zero (S := S5000x64) hz, View.ld_unit_zero (S := S64x64) hz, View.ld_unit_zero (S := S5000x1) hz]
  obtain ⟨-, -, e41, -⟩ := idx_facts t
  funext j
  show k1_pay1 (F := Ideal) (iblk1 V c 0 t) (iblk1 V c 1 t) (iblk1 V c 3 t) (iblk1 V c 2 t) j
    = combined (V c main_arg0) (V c main_v0) (V c main_v14) (V c main_v19) (((cfg1.win 4).blk t).view.emb j)
  refine (pay_at (iblk1 V c 0 t) (iblk1 V c 1 t) (iblk1 V c 3 t) (iblk1 V c 2 t) j).trans ?_
  unfold combined mix
  have hj1 : (j 1).val < 64 := (j 1).isLt
  have h1 : ((((cfg1.win 4).blk t).view.emb j) 1).val = (j 1).val := by
    show win1_4.index t (1 : Fin 2) * 64 + 1 * (j 1).val = (j 1).val; rw [e41]; omega
  have h0 : ((((cfg1.win 4).blk t).view.emb j) 0).val = win1_4.index t (0 : Fin 2) * 5000 + (j 0).val := by
    show win1_4.index t (0 : Fin 2) * 5000 + 1 * (j 0).val = _; omega
  refine congrArg₂ (· + ·) (Finset.sum_congr rfl fun k _ => congrArg₂ (· * ·) ?_ ?_)
    (congrArg₂ Ideal.div ?_ (congrArg (max · one) ?_))
  · exact feat_blk V c t _ _ h0 rfl
  · refine (w_blk V c t _).trans (congrArg _ ?_)
    funext a; apply Fin.ext
    match a with
    | ⟨0, _⟩ => rfl
    | ⟨1, _⟩ => exact h1.symm
  · exact sum_blk V c t _ _ h0 h1
  · exact deg_blk V c t _ _ h0 rfl

/-- An index of the array is in point `t`'s block iff each coordinate is in the block's range on its axis. -/
theorem mem_blk (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v20).slice (win1_4.rect t)).set ↔ _
  rw [View.set_slice_whole, Rect.mem_set_unit]
  exact Iff.rfl

/-- Every index is in some point's block: row `r` lies in block `r / 5000`. -/
theorem cover (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- The result array after the launch, whatever arrays it is entered with. -/
theorem final (c : Dev nD) :
    (dat1 V c).arrAt 4 cfg1.N = combined (V c main_arg0) (V c main_v0) (V c main_v14) (V c main_v19) :=
  (dat1 V c).arrAt_eq_of_cover 4 _ (fun t _ => flushed_eq V c t) cover

end Cert.KernelIdeal.Combine

end
-- ==== Proof.Host.lean ====
/-
  The host operations around the two launches, and the kernel program's result as one function of its six arguments.
  Before the first launch the host transposes the two weight matrices and recasts the bias as one row. Between the
  launches it normalises the source rows (a negative row index counts from the end), gathers those rows of the first
  launch's result, adds every gathered row into the row its destination index names (`messages`), counts the
  destinations the same way by adding ones (`counts`), and recasts the counts as one column. Reading each launch's
  entry arrays back through these operations to the arguments gives `kernelValue`.
-/
import proofs.«171881_j2259152798562_2_alg».proof.Proof.Gen.KernelIdeal.Frame
import proofs.«171881_j2259152798562_2_alg».proof.Proof.Region0
import proofs.«171881_j2259152798562_2_alg».proof.Proof.Region1
import Idealize.ShloMosaic.Lib.StableHlo.Run
import Idealize.ShloMosaic.PureOps.Ideal

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo

/-- The source rows as the gather reads them: a negative index is taken from the end, and the list is laid out as one
    column of start indices. -/
def srcRows (src : (⟨S800000, .i32⟩ : BufTy).Contents (Elt Ideal)) : (⟨S800000x1, .i32⟩ : BufTy).Contents (Elt Ideal) :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The projected rows named by the sources, each added into the row its destination names, from zero. -/
def messages (fn : (⟨S50000x64, .bf16⟩ : BufTy).Contents (Elt Ideal)) (src dst : (⟨S800000, .i32⟩ : BufTy).Contents (Elt Ideal)) :
    (⟨S50000x64, .f32⟩ : BufTy).Contents (Elt Ideal) :=
  Host.scatterAdd (F := Ideal) scatter_S50000x64_S800000x1_S800000x64_1_0_0_1
    (broadcastInDim S50000x64 ![] bcast_S_S50000x64 (constant (F := Ideal) S_ .f32 0x00000000#32))
    (broadcastInDim S800000x1 ![0] bcast_S800000_S800000x1_0 dst)
    (extf (F := Ideal) .f32 (Host.gather gather_S50000x64_S800000x1_S800000x64_1_0_n_n_0_1_164 fn (srcRows src)) bitsLt_bf16_f32)

/-- How many edges name each row as their destination: ones added into the destinations' rows, from zero. -/
def counts (dst : (⟨S800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 dst)
    (broadcastInDim S800000 ![] bcast_S_S800000 (constant (F := Ideal) S_ .f32 0x3F800000#32))

/-- The counts as one column. -/
def degree (dst : (⟨S800000, .i32⟩ : BufTy).Contents (Elt Ideal)) : (⟨S50000x1, .f32⟩ : BufTy).Contents (Elt Ideal) :=
  shapeCast S50000x1 (counts dst) shapeCasts_S50000_S50000x1

/-- A weight matrix transposed. -/
def transposed (w : (⟨S64x64, .f32⟩ : BufTy).Contents (Elt Ideal)) : (⟨S64x64, .f32⟩ : BufTy).Contents (Elt Ideal) :=
  transpose S64x64 [1, 0] w transposes_S64x64_S64x64_1_0

/-- The bias as one row. -/
def biasRow (b : (⟨S64, .f32⟩ : BufTy).Contents (Elt Ideal)) : (⟨S1x64, .f32⟩ : BufTy).Contents (Elt Ideal) :=
  shapeCast S1x64 b shapeCasts_S64_S1x64

/-- The kernel program's result as a function of its arguments: the second launch's formula over the features, the
    transposed self weights, the messages of the first launch's result, and the degree column. -/
def kernelValue (feat : (⟨S50000x64, .f32⟩ : BufTy).Contents (Elt Ideal)) (wSelf wNeigh : (⟨S64x64, .f32⟩ : BufTy).Contents (Elt Ideal))
    (b : (⟨S64, .f32⟩ : BufTy).Contents (Elt Ideal)) (src dst : (⟨S800000, .i32⟩ : BufTy).Contents (Elt Ideal)) :
    (⟨S50000x64, .f32⟩ : BufTy).Contents (Elt Ideal) :=
  Combine.combined feat (transposed wSelf)
    (messages (Linear.projected feat (transposed wNeigh) (biasRow b)) src dst) (degree dst)

variable (m : (ℓ : Loc nD τ sig) → Buf (Elt Ideal) ℓ) (ρ : Dev nD → PrngReg)

/-! ## The first launch's entry arrays -/

theorem entry0_feat (c : Dev nD) : V1 m ρ c main_arg0 = m ((c : Thread nD τ).loc main_arg0) := by
  show StableHlo.after hostOps0 (W0 m ρ c) (Proc.devRef .tc main_arg0) = _
  after_results <;> rfl

theorem entry0_w (c : Dev nD) : V1 m ρ c main_v1 = transposed (m ((c : Thread nD τ).loc main_arg2)) := by
  show StableHlo.after hostOps0 (W0 m ρ c) (Proc.devRef .tc main_v1) = _
  after_results <;> rfl

theorem entry0_b (c : Dev nD) : V1 m ρ c main_v2 = biasRow (m ((c : Thread nD τ).loc main_arg3)) := by
  show StableHlo.after hostOps0 (W0 m ρ c) (Proc.devRef .tc main_v2) = _
  after_results <;> rfl

/-! ## The arrays between the launches -/

/-- The first launch leaves the projected rows. -/
theorem mid_fn (c : Dev nD) : W2 m ρ c (Proc.devRef .tc main_v3)
    = Linear.projected (m ((c : Thread nD τ).loc main_arg0)) (transposed (m ((c : Thread nD τ).loc main_arg2))) (biasRow (m ((c : Thread nD τ).loc main_arg3))) := by
  refine (W2_arr m ρ c 3).trans ((Linear.final (V1 m ρ) c).trans ?_)
  rw [entry0_feat, entry0_w, entry0_b]

theorem mid_feat (c : Dev nD) : W2 m ρ c (Proc.devRef .tc main_arg0) = m ((c : Thread nD τ).loc main_arg0) :=
  (W2_arr m ρ c 0).trans ((((dat0 (V1 m ρ) c).arrAt_in 0 rfl _).trans (A_eq0 (V1 m ρ) c 0)).trans (entry0_feat m ρ c))

theorem mid_src (c : Dev nD) : W2 m ρ c (Proc.devRef .tc main_arg4) = m ((c : Thread nD τ).loc main_arg4) := by
  refine (W2_of_ne m ρ c main_arg4 (by decide)).trans ?_
  show StableHlo.after hostOps0 (W0 m ρ c) (Proc.devRef .tc main_arg4) = _
  after_results <;> rfl

theorem mid_dst (c : Dev nD) : W2 m ρ c (Proc.devRef .tc main_arg5) = m ((c : Thread nD τ).loc main_arg5) := by
  refine (W2_of_ne m ρ c main_arg5 (by decide)).trans ?_
  show StableHlo.after hostOps0 (W0 m ρ c) (Proc.devRef .tc main_arg5) = _
  after_results <;> rfl

theorem mid_wSelf (c : Dev nD) : W2 m ρ c (Proc.devRef .tc main_v0) = transposed (m ((c : Thread nD τ).loc main_arg1)) := by
  refine (W2_of_ne m ρ c main_v0 (by decide)).trans ?_
  show StableHlo.after hostOps0 (W0 m ρ c) (Proc.devRef .tc main_v0) = _
  after_results <;> rfl

/-! ## The second launch's entry arrays -/

theorem entry1_feat (c : Dev nD) : V3 m ρ c main_arg0 = m ((c : Thread nD τ).loc main_arg0) := by
  show StableHlo.after hostOps1 (W2 m ρ c) (Proc.devRef .tc main_arg0) = _
  after_results
  exact mid_feat m ρ c

theorem entry1_w (c : Dev nD) : V3 m ρ c main_v0 = transposed (m ((c : Thread nD τ).loc main_arg1)) := by
  show StableHlo.after hostOps1 (W2 m ρ c) (Proc.devRef .tc main_v0) = _
  after_results
  exact mid_wSelf m ρ c

theorem entry1_sum (c : Dev nD) : V3 m ρ c main_v14
    = messages (W2 m ρ c (Proc.devRef .tc main_v3)) (W2 m ρ c (Proc.devRef .tc main_arg4)) (W2 m ρ c (Proc.devRef .tc main_arg5)) := by
  show StableHlo.after hostOps1 (W2 m ρ c) (Proc.devRef .tc main_v14) = _
  after_results <;> rfl

theorem entry1_deg (c : Dev nD) : V3 m ρ c main_v19 = degree (W2 m ρ c (Proc.devRef .tc main_arg5)) := by
  show StableHlo.after hostOps1 (W2 m ρ c) (Proc.devRef .tc main_v19) = _
  after_results <;> rfl

/-! ## The result -/

/-- The result buffer after the run is `kernelValue` of the arguments as launched. -/
theorem result_eq (c : Dev nD) : W4 m ρ c (Proc.devRef .tc main_v20)
    = kernelValue (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W4_arr m ρ c 4).trans ((Combine.final (V3 m ρ) c).trans ?_)
  rw [entry1_feat, entry1_w, entry1_sum, entry1_deg, mid_fn, mid_src, mid_dst]
  rfl

end Cert.KernelIdeal.HostSide

end
-- ==== Proof.Bridge.lean ====
/-
  The kernel program's result and the reference's result are one function of the six arguments.
  Index by index both are: the sum over `k` of `features (n, k) · selfWeights (o, k)`, plus the messages' sum at
  `(n, o)` divided by the larger of the destination count of row `n` and one. The kernel reaches the self product
  through a transposed copy of the weights, the reference by contracting the weights' second axis; the kernel's
  neighbour projection (first launch) is the reference's product plus the broadcast bias; the gather, the two
  accumulating scatters and their index operands are the same operations on both sides, so once the projected rows agree
  the messages and the counts agree as whole arrays; the kernel clamps and divides inside the second launch, row by row,
  where the reference clamps the count vector, broadcasts it and divides the arrays.
  Nothing here needs the inputs to be finite: only the same sums and quotients are formed on both sides.
-/
import proofs.«171881_j2259152798562_2_alg».proof.Proof.Host
import proofs.«171881_j2259152798562_2_alg».proof.Proof.LibColumn
import proofs.«171881_j2259152798562_2_alg».proof.Proof.Gen.ReferenceIdeal.Read
import Idealize.ShloMosaic.Lib.ValueLayout

set_option maxRecDepth 16384

noncomputable section

namespace Cert.Bridge

open Idealize.ShloMosaic Idealize.ShloMosaic.ValueIdx
open Cert.KernelIdeal.HostSide
open Cert.ReferenceIdeal.Read

abbrev A50000x64 := (⟨Cert.ReferenceIdeal.S50000x64, .f32⟩ : BufTy).Contents (Elt Ideal)
abbrev A64x64 := (⟨Cert.ReferenceIdeal.S64x64, .f32⟩ : BufTy).Contents (Elt Ideal)
abbrev A64 := (⟨Cert.ReferenceIdeal.S64, .f32⟩ : BufTy).Contents (Elt Ideal)
abbrev I800000 := (⟨Cert.ReferenceIdeal.S800000, .i32⟩ : BufTy).Contents (Elt Ideal)

/-- The first launch's formula over the transposed neighbour weights and the bias row is the reference's product with
    the weights' second axis contracted, plus the bias broadcast over the rows. -/
theorem projected_eq (x0 : A50000x64) (x2 : A64x64) (x3 : A64) :
    Cert.KernelIdeal.Linear.projected x0 (transposed x2) (biasRow x3) = val_main_v4 (F := Ideal) x0 x2 x3 := by
  funext i
  rw [val_main_v4_apply, val_main_v1_apply, val_main_v3_apply, val_main_v2_apply]
  unfold Cert.KernelIdeal.Linear.projected Cert.KernelIdeal.Linear.affine
  refine congrArg₂ (· + ·) (Finset.sum_congr rfl fun k _ => congrArg₂ (· * ·) ?_ ?_) ?_
  · refine congrArg x0 (funext fun a => ?_)
    match a with
    | ⟨0, _⟩ => rfl
    | ⟨1, _⟩ => rfl
  · unfold transposed
    refine (transpose_ix2_apply x2 _ k ⟨(i 1).val, (i 1).isLt⟩).trans (congrArg x2 (funext fun a => ?_))
    match a with
    | ⟨0, _⟩ => rfl
    | ⟨1, _⟩ => rfl
  · unfold biasRow
    refine (shapeCast_a_1a_apply x3 _ (0 : Fin 1) ⟨(i 1).val, (i 1).isLt⟩).trans (congrArg x3 (funext fun a => ?_))
    match a with
    | ⟨0, _⟩ => rfl

/-- With the same projected rows, sources and destinations, the two programs' message sums are the same array: the
    same gather of the same rows, added by the same scatter. -/
theorem messages_eq (x0 : A50000x64) (x2 : A64x64) (x3 : A64) (x4 x5 : I800000) :
    messages (val_main_v4 (F := Ideal) x0 x2 x3) x4 x5 = val_main_v14 (F := Ideal) x0 x2 x3 x4 x5 := rfl

/-- The destination counts are the same array. -/
theorem counts_eq (x5 : I800000) : counts x5 = val_main_v18 (F := Ideal) x5 := rfl

/-- The kernel program's result is the reference's, as functions of the arguments. -/
theorem kernelValue_eq (x0 : A50000x64) (x1 x2 : A64x64) (x3 : A64) (x4 x5 : I800000) :
    kernelValue x0 x1 x2 x3 x4 x5 = val_main_v24 (F := Ideal) x0 x1 x2 x3 x4 x5 := by
  funext i
  rw [val_main_v24_apply, val_main_v0_apply, val_main_v23_apply, val_main_v22_apply, val_main_v21_apply,
    val_main_v20_apply, val_main_v19_apply, val_main_cst_3_apply]
  unfold kernelValue Cert.KernelIdeal.Combine.combined Cert.KernelIdeal.Combine.mix
  rw [projected_eq, messages_eq]
  refine congrArg₂ (· + ·) (Finset.sum_congr rfl fun k _ => congrArg₂ (· * ·) ?_ ?_)
    (congrArg₂ Ideal.div ?_ (congrArg (max · Cert.KernelIdeal.Combine.one) ?_))
  · refine congrArg x0 (funext fun a => ?_)
    match a with
    | ⟨0, _⟩ => rfl
    | ⟨1, _⟩ => rfl
  · unfold transposed
    refine (transpose_ix2_apply x1 _ k ⟨(i 1).val, (i 1).isLt⟩).trans (congrArg x1 (funext fun a => ?_))
    match a with
    | ⟨0, _⟩ => rfl
    | ⟨1, _⟩ => rfl
  · refine congrArg (val_main_v14 (F := Ideal) x0 x2 x3 x4 x5) (funext fun a => ?_)
    match a with
    | ⟨0, _⟩ => rfl
    | ⟨1, _⟩ => rfl
  · unfold degree
    refine (ColumnLayout.shapeCast_a_a1_apply (counts x5) _ ⟨(i 0).val, (i 0).isLt⟩ (0 : Fin 1)).trans ?_
    rw [counts_eq]
    refine congrArg (val_main_v18 (F := Ideal) x5) (funext fun a => ?_)
    match a with
    | ⟨0, _⟩ => rfl

end Cert.Bridge

end
-- ==== Proof.lean ====
/-
  A graph layer: every node's features are projected twice (self weights; neighbour weights plus a bias), the neighbour
  projections are summed along the edges into their destination nodes, each sum is divided by the node's in-degree
  clamped below at one, and the self projection is added.

  The kernel program does this with two launches over ten blocks of 5000 nodes — the neighbour projection, then the
  self projection fused with the division and the final sum — and, between them, the host's gather of the projected
  rows by source node and its two accumulating scatters by destination node (the messages and the degree counts). The
  reference is the same computation written over whole arrays.

  On the extended reals the two results are one function of the six arguments (Proof/Bridge.lean): the roundings to
  bfloat16 are the identity, a matrix product by a transposed matrix is the product that contracts the other axis, the
  gather and the scatters are applied to equal operands, and clamping and dividing row by row inside a launch is clamping
  and dividing the arrays. No finiteness of the inputs is used. The idealization rewrote nothing, so its statement
  about the word-level program is trivially true. Each program's frame is its generated run.
-/
import proofs.«171881_j2259152798562_2_alg».proof.Defs
import proofs.«171881_j2259152798562_2_alg».proof.Proof.Gen.Kernel
import proofs.«171881_j2259152798562_2_alg».proof.Proof.Gen.Kernel.Frame
import proofs.«171881_j2259152798562_2_alg».proof.Proof.Gen.KernelIdeal
import proofs.«171881_j2259152798562_2_alg».proof.Proof.Gen.KernelIdeal.Frame
import proofs.«171881_j2259152798562_2_alg».proof.Proof.Gen.ReferenceIdeal
import proofs.«171881_j2259152798562_2_alg».proof.Proof.Gen.Pre_finite_inputs
import proofs.«171881_j2259152798562_2_alg».proof.Proof.Gen.ReferenceIdeal.Run
import proofs.«171881_j2259152798562_2_alg».proof.Proof.Gen.ReferenceIdeal.Read
import proofs.«171881_j2259152798562_2_alg».proof.Proof.KRun
import proofs.«171881_j2259152798562_2_alg».proof.Proof.Host
import proofs.«171881_j2259152798562_2_alg».proof.Proof.Bridge

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten when the kernel program was read on the extended reals. -/
theorem preserves : Cert.preserves_Kernel_KernelIdeal := trivial

/-- From memories that agree on the six arguments both programs end with the same result array: the kernel program's
    run leaves `kernelValue` of the arguments in its result buffer, the reference's run leaves its own composed term,
    and the two are one function. -/
theorem algebraic : Cert.algebraic_KernelIdeal_ReferenceIdeal := by
  intro m ρ m' ρ' _ hagree
  refine ⟨fun c => Cert.KernelIdeal.HostSide.kernelValue
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.HostSide.result_eq m ρ c), (h c).2⟩)
      (Cert.KernelIdeal.KRun.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v24_eq, (hagree c).1, (hagree c).2.1, (hagree c).2.2.1, (hagree c).2.2.2.1,
      (hagree c).2.2.2.2.1, (hagree c).2.2.2.2.2]
    exact (Cert.Bridge.kernelValue_eq _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
